-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S5x128 : Shape := ⟨2, ![5, 128]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg4 : FVec F S8x128x128x128 .f32) (main_arg5 : FVec F S5x128 .f32) (main_v13 : IVec S_ 1) (main_v16 : IVec S8x128x128x128 1) : IVec S_ 1 :=
  let main_c_5 : IVec S_ 1 := constantI S_ 1 1#1
  let main_v17 : IVec S_ 1 := (fun x v => Host.reduce IntOp.andi x v reducesTo_S8x128x128x128_S_d0_1_2_3 h_S_) main_v16 main_c_5
  let main_v18 : IVec S_ 1 := andi main_v13 main_v17
  let main_v19 : FVec F S8x128x128x128 .f32 := Host.absf main_arg4
  let main_cst_6 : FVec F S_ .f32 := constant S_ .f32 0x7F800000#32
  let main_v20 : FVec F S8x128x128x128 .f32 := broadcastInDim S8x128x128x128 ![] bcast_S_S8x128x128x128 main_cst_6
  let main_v21 : IVec S8x128x128x128 1 := cmpf .olt main_v19 main_v20
  let main_c_7 : IVec S_ 1 := constantI S_ 1 1#1
  let main_v22 : IVec S_ 1 := (fun x v => Host.reduce IntOp.andi x v reducesTo_S8x128x128x128_S_d0_1_2_3 h_S_) main_v21 main_c_7
  let main_v23 : IVec S_ 1 := andi main_v18 main_v22
  let main_v24 : FVec F S5x128 .f32 := Host.absf main_arg5
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  main_v28

def fn {F : FTy → Type} [FloatOps F] (main_arg0 : FVec F S8x128x128x128 .f32) (main_arg1 : FVec F S8x128x128x128 .f32) (main_arg2 : FVec F S8x128x128x128 .f32) (main_arg3 : FVec F S8x128x128x128 .f32) (main_arg4 : FVec F S8x128x128x128 .f32) (main_arg5 : FVec F S5x128 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x128x128x128 .f32 := Host.absf main_arg1
  let main_cst_0 : FVec F S_ .f32 := constant S_ .f32 0x7F800000#32
  let main_v5 : FVec F S8x128x128x128 .f32 := broadcastInDim S8x128x128x128 ![] bcast_S_S8x128x128x128 main_cst_0
  let main_v6 : IVec S8x128x128x128 1 := cmpf .olt main_v4 main_v5
  let main_c_1 : IVec S_ 1 := constantI S_ 1 1#1
  let main_v7 : IVec S_ 1 := (fun x v => Host.reduce IntOp.andi x v reducesTo_S8x128x128x128_S_d0_1_2_3 h_S_) main_v6 main_c_1
  let main_v8 : IVec S_ 1 := andi main_v3 main_v7
  let main_v9 : FVec F S8x128x128x128 .f32 := Host.absf main_arg2
  let main_cst_2 : FVec F S_ .f32 := constant S_ .f32 0x7F800000#32
  let main_v10 : FVec F S8x128x128x128 .f32 := broadcastInDim S8x128x128x128 ![] bcast_S_S8x128x128x128 main_cst_2
  let main_v11 : IVec S8x128x128x128 1 := cmpf .olt main_v9 main_v10
  let main_c_3 : IVec S_ 1 := constantI S_ 1 1#1
  let main_v12 : IVec S_ 1 := (fun x v => Host.reduce IntOp.andi x v reducesTo_S8x128x128x128_S_d0_1_2_3 h_S_) main_v11 main_c_3
  let main_v13 : IVec S_ 1 := andi main_v8 main_v12
  let main_v14 : FVec F S8x128x128x128 .f32 := Host.absf main_arg3
  let main_cst_4 : FVec F S_ .f32 := constant S_ .f32 0x7F800000#32
  let main_v15 : FVec F S8x128x128x128 .f32 := broadcastInDim S8x128x128x128 ![] bcast_S_S8x128x128x128 main_cst_4
  let main_v16 : IVec S8x128x128x128 1 := cmpf .olt main_v14 main_v15
  fn_part1 (F := F) main_arg4 main_arg5 main_v13 main_v16
-- ==== Kernel.lean ====
abbrev S8x128x128x128 : Shape := ⟨4, ![8, 128, 128, 128]⟩
abbrev S5x128 : Shape := ⟨2, ![5, 128]⟩
abbrev S131072x128 : Shape := ⟨2, ![131072, 128]⟩
abbrev S4096x128 : Shape := ⟨2, ![4096, 128]⟩
abbrev S1x128 : Shape := ⟨2, ![1, 128]⟩

abbrev nBuf : Space → Nat
  | .hbm => 13
  | .vmem => 13
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x128x128x128, .f32⟩
  | .hbm, ⟨3, _⟩ => ⟨S8x128x128x128, .f32⟩
  | .hbm, ⟨4, _⟩ => ⟨S8x128x128x128, .f32⟩
  | .hbm, ⟨5, _⟩ => ⟨S5x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S131072x128, .f32⟩
  | .hbm, ⟨10, _⟩ => ⟨S131072x128, .f32⟩
  | .hbm, ⟨11, _⟩ => ⟨S131072x128, .f32⟩
  | .hbm, ⟨12, _⟩ => ⟨S8x128x128x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S5x128, .f32⟩
  | .local _ .vmem, ⟨11, _⟩ => ⟨S4096x128, .f32⟩
  | .local _ .vmem, ⟨12, _⟩ => ⟨S4096x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x128x128x128_S131072x128 : S8x128x128x128.ShapeCasts S131072x128
  inb_S5x128_S1x128_0_0 : ∀ a, (![0, 0] : Fin 2 → Nat) a + S1x128.size a ≤ S5x128.size a
  h_S1x128 : 0 < S1x128.numel
  inb_S5x128_S1x128_1_0 : ∀ a, (![1, 0] : Fin 2 → Nat) a + S1x128.size a ≤ S5x128.size a
  inb_S5x128_S1x128_2_0 : ∀ a, (![2, 0] : Fin 2 → Nat) a + S1x128.size a ≤ S5x128.size a
  inb_S5x128_S1x128_3_0 : ∀ a, (![3, 0] : Fin 2 → Nat) a + S1x128.size a ≤ S5x128.size a
  inb_S5x128_S1x128_4_0 : ∀ a, (![4, 0] : Fin 2 → Nat) a + S1x128.size a ≤ S5x128.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  shapeCasts_S131072x128_S8x128x128x128 : S131072x128.ShapeCasts S8x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S5x128 : Shape := ⟨2, ![5, 128]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x128x128x128, .f32⟩
  | .hbm, ⟨3, _⟩ => ⟨S8x128x128x128, .f32⟩
  | .hbm, ⟨4, _⟩ => ⟨S8x128x128x128, .f32⟩
  | .hbm, ⟨5, _⟩ => ⟨S5x128, .f32⟩
  | .hbm, ⟨6, _⟩ => ⟨S1x128, .f32⟩
  | .hbm, ⟨7, _⟩ => ⟨S128, .f32⟩
  | .hbm, ⟨8, _⟩ => ⟨S1x1x1x128, .f32⟩
  | .hbm, ⟨9, _⟩ => ⟨S8x128x128x128, .f32⟩
  | .hbm, ⟨10, _⟩ => ⟨S8x128x128x128, .f32⟩
  | .hbm, ⟨11, _⟩ => ⟨S1x128, .f32⟩
  | .hbm, ⟨12, _⟩ => ⟨S128, .f32⟩
  | .hbm, ⟨13, _⟩ => ⟨S1x1x1x128, .f32⟩
  | .hbm, ⟨14, _⟩ => ⟨S8x128x128x128, .f32⟩
  | .hbm, ⟨15, _⟩ => ⟨S8x128x128x128, .f32⟩
  | .hbm, ⟨16, _⟩ => ⟨S8x128x128x128, .f32⟩
  | .hbm, ⟨17, _⟩ => ⟨S1x128, .f32⟩
  | .hbm, ⟨18, _⟩ => ⟨S128, .f32⟩
  | .hbm, ⟨19, _⟩ => ⟨S1x1x1x128, .f32⟩
  | .hbm, ⟨20, _⟩ => ⟨S8x128x128x128, .f32⟩
  | .hbm, ⟨21, _⟩ => ⟨S8x128x128x128, .f32⟩
  | .hbm, ⟨22, _⟩ => ⟨S8x128x128x128, .f32⟩
  | .hbm, ⟨23, _⟩ => ⟨S1x128, .f32⟩
  | .hbm, ⟨24, _⟩ => ⟨S128, .f32⟩
  | .hbm, ⟨25, _⟩ => ⟨S1x1x1x128, .f32⟩
  | .hbm, ⟨26, _⟩ => ⟨S8x128x128x128, .f32⟩
  | .hbm, ⟨27, _⟩ => ⟨S8x128x128x128, .f32⟩
  | .hbm, ⟨28, _⟩ => ⟨S8x128x128x128, .f32⟩
  | .hbm, ⟨29, _⟩ => ⟨S1x128, .f32⟩
  | .hbm, ⟨30, _⟩ => ⟨S128, .f32⟩
  | .hbm, ⟨31, _⟩ => ⟨S1x1x1x128, .f32⟩
  | .hbm, ⟨32, _⟩ => ⟨S8x128x128x128, .f32⟩
  | .hbm, ⟨33, _⟩ => ⟨S8x128x128x128, .f32⟩
  | .hbm, ⟨34, _⟩ => ⟨S8x128x128x128, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  slices_S5x128_S1x128_0_0 : S5x128.Slices ![0, 0] S1x128
  shapeCasts_S1x128_S128 : S1x128.ShapeCasts S128
  bcast_S128_S1x1x1x128_3 : S128.BroadcastsInDim S1x1x1x128 (![3] : Fin 1 → Fin S1x1x1x128.rank)
  bcast_S1x1x1x128_S8x128x128x128_0_1_2_3 : S1x1x1x128.BroadcastsInDim S8x128x128x128 (![0, 1, 2, 3] : Fin 4 → Fin S8x128x128x128.rank)
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128

variable [Facts₀]

class Facts : Prop extends Facts₀ where

variable [Facts]
-- ==== Proof.Spec.lean ====
/-
  The merge of five activation streams by per-channel weights, as ONE function of the arrays.

  For activations `t₁ … t₅` of shape [8, 128, 128, 128] (batch, height, width, channel) and weights `w` of shape
  [5, 128], the merged array is, entry by entry,
      out (b, h, x, c) = (((t₁·w₀c + t₂·w₁c) + t₃·w₂c) + t₄·w₃c) + t₅·w₄c        (every tᵢ read at (b, h, x, c)),
  the five products summed from the left. The same function is written over the flattened layout [131072, 128] (a row
  is one (b, h, x) position, a lane one channel): there the weight of stream `k` on lane `c` is still `w (k, c)`.
  Flattening the activations, merging the rows and un-flattening the result is merging the activations: a reshape
  keeps the row-major position, the lane of a row entry is the channel of the activation entry it came from, and the
  merge reads nothing but the entry itself and its channel's weights. No arithmetic law is used, so everything here
  holds for any float instance.
-/
import Idealize.ShloMosaic.PureOps.Ideal
import Idealize.ShloMosaic.Lib.ValueIdx
import Idealize.ShloMosaic.Lib.Pipeline.Value

noncomputable section

namespace Cert.Merge

open Idealize.ShloMosaic Idealize.ShloMosaic.ValueIdx

variable {F : FTy → Type} [FloatOps F]

/-- The activations' shape: batch, height, width, channel. -/
abbrev Act : Shape := ⟨4, ![8, 128, 128, 128]⟩
/-- The flattened layout: one row per (batch, height, width) position, one lane per channel. -/
abbrev Rows : Shape := ⟨2, ![131072, 128]⟩
/-- The weights' shape: one row per stream, one lane per channel. -/
abbrev Wts : Shape := ⟨2, ![5, 128]⟩

/-- Five values, each scaled by its own weight, the products summed from the left. -/
def mix (a0 a1 a2 a3 a4 b0 b1 b2 b3 b4 : F .f32) : F .f32 :=
  FloatOps.addf (FloatOps.addf (FloatOps.addf (FloatOps.addf (FloatOps.mulf a0 b0) (FloatOps.mulf a1 b1))
    (FloatOps.mulf a2 b2)) (FloatOps.mulf a3 b3)) (FloatOps.mulf a4 b4)

/-- The merged activations: entry (b, h, x, c) mixes the five streams' entries there by the weights of channel `c`. -/
def mergeAct (t1 t2 t3 t4 t5 : Act.Idx → F .f32) (w : Wts.Idx → F .f32) : Act.Idx → F .f32 := fun i =>
  mix (t1 i) (t2 i) (t3 i) (t4 i) (t5 i)
    (w (ix2 (0 : Fin 5) (i 3))) (w (ix2 (1 : Fin 5) (i 3))) (w (ix2 (2 : Fin 5) (i 3))) (w (ix2 (3 : Fin 5) (i 3))) (w (ix2 (4 : Fin 5) (i 3)))

/-- The same over the flattened layout: entry (row, lane) mixes the five streams' entries there by the weights of
    that lane. -/
def mergeRows (r1 r2 r3 r4 r5 : Rows.Idx → F .f32) (w : Wts.Idx → F .f32) : Rows.Idx → F .f32 := fun j =>
  mix (r1 j) (r2 j) (r3 j) (r4 j) (r5 j)
    (w (ix2 (0 : Fin 5) (j 1))) (w (ix2 (1 : Fin 5) (j 1))) (w (ix2 (2 : Fin 5) (j 1))) (w (ix2 (3 : Fin 5) (j 1))) (w (ix2 (4 : Fin 5) (j 1)))

/-- The row of the flattened layout that holds position (b, h, x), with the channel as its lane. -/
def flatIx (i : Act.Idx) : Rows.Idx :=
  ix2 (⟨((i 0).val * 128 + (i 1).val) * 128 + (i 2).val, by
        have h0 : (i 0).val < 8 := (i 0).isLt
        have h1 : (i 1).val < 128 := (i 1).isLt
        have h2 : (i 2).val < 128 := (i 2).isLt
        omega⟩ : Fin 131072) (i 3)

/-- It sits at the same row-major position. -/
theorem flatIx_rowMajor (i : Act.Idx) : (Rows.rowMajor (flatIx i)).val = (Act.rowMajor i).val := by
  rw [Shape.rowMajor_val_two, Shape.rowMajor_val_four]
  rfl

/-- Flatten the five streams, merge the rows, un-flatten: the merged activations. -/
theorem unflatten_mergeRows (t1 t2 t3 t4 t5 : Act.Idx → F .f32) (w : Wts.Idx → F .f32)
    (h : Act.ShapeCasts Rows) (h' : Rows.ShapeCasts Act) :
    shapeCast Act (mergeRows (shapeCast Rows t1 h) (shapeCast Rows t2 h) (shapeCast Rows t3 h) (shapeCast Rows t4 h)
      (shapeCast Rows t5 h) w) h' = mergeAct t1 t2 t3 t4 t5 w := by
  funext i
  rw [shapeCast_apply _ h' i (flatIx i) (flatIx_rowMajor i)]
  show mix (shapeCast Rows t1 h (flatIx i)) (shapeCast Rows t2 h (flatIx i)) (shapeCast Rows t3 h (flatIx i))
      (shapeCast Rows t4 h (flatIx i)) (shapeCast Rows t5 h (flatIx i)) _ _ _ _ _ = _
  rw [shapeCast_apply t1 h (flatIx i) i (flatIx_rowMajor i).symm, shapeCast_apply t2 h (flatIx i) i (flatIx_rowMajor i).symm,
    shapeCast_apply t3 h (flatIx i) i (flatIx_rowMajor i).symm, shapeCast_apply t4 h (flatIx i) i (flatIx_rowMajor i).symm,
    shapeCast_apply t5 h (flatIx i) i (flatIx_rowMajor i).symm]
  rfl

end Cert.Merge

end
-- ==== Proof.RefValue.lean ====
/-
  The reference computes the merge.

  The reference forms, for each stream `k`, the row `w[k]` of the weights (a slice of one row, reshaped to a vector of
  128 channels), spreads it over batch, height and width (two broadcasts: first to [1, 1, 1, 128], then to the full
  shape), multiplies the stream by it, and adds the five products from the left. Read at an entry (b, h, x, c) the
  spread row is `w (k, c)`: the broadcasts keep only the channel coordinate, the reshape of a [1, 128] row to 128
  channels keeps the lane, and the slice starts at row `k`. So the reference's result is `mergeAct` of its arguments,
  entry by entry, with the same grouping of the sum.
-/
import proofs.«176489_j20538533609780_2_alg».proof.Proof.Gen.ReferenceIdeal.Read
import proofs.«176489_j20538533609780_2_alg».proof.Proof.Spec

noncomputable section

namespace Cert.ReferenceIdeal.RefValue

open Cert.ReferenceIdeal Cert.ReferenceIdeal.Read Cert.Merge Idealize.ShloMosaic Idealize.ShloMosaic.ValueIdx

variable {F : FTy → Type} [FloatOps F]

/-- The entry of the weights that stream 0's spread row reads at an activation entry: row 0, the entry's channel. -/
theorem spread0 (i : S8x128x128x128.Idx) :
    idx_main_v0 (idx_main_v1 (idx_main_v2 (idx_main_v3 i))) = ix2 (0 : Fin 5) (i 3) := by
  funext a; apply Fin.ext
  match a with
  | ⟨0, _⟩ => rfl
  | ⟨1, _⟩ => show (i 3).val % 128 = (i 3).val; have h : (i 3).val < 128 := (i 3).isLt; omega

/-- Stream 1's: row 1. -/
theorem spread1 (i : S8x128x128x128.Idx) :
    idx_main_v5 (idx_main_v6 (idx_main_v7 (idx_main_v8 i))) = ix2 (1 : Fin 5) (i 3) := by
  funext a; apply Fin.ext
  match a with
  | ⟨0, _⟩ => rfl
  | ⟨1, _⟩ => show (i 3).val % 128 = (i 3).val; have h : (i 3).val < 128 := (i 3).isLt; omega

/-- Stream 2's: row 2. -/
theorem spread2 (i : S8x128x128x128.Idx) :
    idx_main_v11 (idx_main_v12 (idx_main_v13 (idx_main_v14 i))) = ix2 (2 : Fin 5) (i 3) := by
  funext a; apply Fin.ext
  match a with
  | ⟨0, _⟩ => rfl
  | ⟨1, _⟩ => show (i 3).val % 128 = (i 3).val; have h : (i 3).val < 128 := (i 3).isLt; omega

/-- Stream 3's: row 3. -/
theorem spread3 (i : S8x128x128x128.Idx) :
    idx_main_v17 (idx_main_v18 (idx_main_v19 (idx_main_v20 i))) = ix2 (3 : Fin 5) (i 3) := by
  funext a; apply Fin.ext
  match a with
  | ⟨0, _⟩ => rfl
  | ⟨1, _⟩ => show (i 3).val % 128 = (i 3).val; have h : (i 3).val < 128 := (i 3).isLt; omega

/-- Stream 4's: row 4. -/
theorem spread4 (i : S8x128x128x128.Idx) :
    idx_main_v23 (idx_main_v24 (idx_main_v25 (idx_main_v26 i))) = ix2 (4 : Fin 5) (i 3) := by
  funext a; apply Fin.ext
  match a with
  | ⟨0, _⟩ => rfl
  | ⟨1, _⟩ => show (i 3).val % 128 = (i 3).val; have h : (i 3).val < 128 := (i 3).isLt; omega

/-- The reference's result, as a function of its six arguments, is the merged activations. -/
theorem result_eq (x0 x1 x2 x3 x4 : (⟨S8x128x128x128, .f32⟩ : BufTy).Contents (Elt F)) (x5 : (⟨S5x128, .f32⟩ : BufTy).Contents (Elt F)) :
    val_main_v28 (F := F) x0 x1 x2 x3 x4 x5 = mergeAct x0 x1 x2 x3 x4 x5 := by
  funext i
  rw [val_main_v28_apply, val_main_v22_apply, val_main_v16_apply, val_main_v10_apply,
    val_main_v4_apply, val_main_v9_apply, val_main_v15_apply, val_main_v21_apply, val_main_v27_apply,
    val_main_v3_apply, val_main_v2_apply, val_main_v1_apply, val_main_v0_apply,
    val_main_v8_apply, val_main_v7_apply, val_main_v6_apply, val_main_v5_apply,
    val_main_v14_apply, val_main_v13_apply, val_main_v12_apply, val_main_v11_apply,
    val_main_v20_apply, val_main_v19_apply, val_main_v18_apply, val_main_v17_apply,
    val_main_v26_apply, val_main_v25_apply, val_main_v24_apply, val_main_v23_apply,
    spread0, spread1, spread2, spread3, spread4]
  rfl

end Cert.ReferenceIdeal.RefValue

end
-- ==== Proof.Body.lean ====
/-
  What the kernel body leaves in its output block, entry by entry.

  At a grid point the body holds five blocks of 4096 rows by 128 lanes (one per stream) and the whole weight array.
  It loads the five weight rows as [1, 128] vectors, spreads each down the 4096 rows, multiplies each stream's block
  by its spread row and adds the five products from the left; one store writes the sum over the whole output block.
  Read at (row r, lane l): a spread row is its vector at lane `l` (the broadcast keeps the lane, the unit axis reads
  0), weight row `k` loaded as a [1, 128] vector reads the weight array at (k, l), and the casts of a block to its own
  shape do nothing. So the block's entry (r, l) is the mix of the five streams' entries at (r, l) by the weights
  (0, l) … (4, l).
-/
import proofs.«176489_j20538533609780_2_alg».proof.Proof.Gen.KernelIdeal.Frame
import proofs.«176489_j20538533609780_2_alg».proof.Proof.Spec

noncomputable section

namespace Cert.KernelIdeal.Body

open Cert.KernelIdeal Cert.KernelIdeal.Gen Cert.Merge Idealize.ShloMosaic Idealize.ShloMosaic.ValueIdx

variable {F : FTy → Type} [FloatOps F]

/-- Both offsets of a whole-block access are zero. -/
theorem zero_off : (![0, 0] : Fin 2 → Nat) = fun _ => 0 := funext fun a => by fin_cases a <;> rfl

/-- A [1, 128] vector spread down 4096 rows reads, at (r, l), the vector at lane `l`. -/
theorem spread_row {α : Type} (v : S1x128.Idx → α) (h : S1x128.Broadcasts S4096x128) (r : Fin 4096) (l : Fin 128) :
    broadcastTo S4096x128 v h (ix2 r l) = v (ix2 (0 : Fin 1) l) :=
  broadcastTo_apply v h (ix2 r l) (ix2 (0 : Fin 1) l) (fun a => match a with
    | ⟨0, _⟩ => by show (0 : Nat) = if (1 : Nat) = 1 then 0 else _; rw [if_pos rfl]
    | ⟨1, _⟩ => by show l.val = if (128 : Nat) = 1 then 0 else l.val; rw [if_neg (by decide)])

/-- The body's arithmetic on whole vectors: the mix, entry by entry, of the five blocks by the five spread rows. -/
theorem payload_eq (v0 v1 v2 v3 v4 : Vec F S1x128 .f32) (v5 v9 v14 v19 v24 : Vec F S4096x128 .f32) :
    k0_pay1 v0 v1 v2 v3 v4 v5 v9 v14 v19 v24 = fun j =>
      mix (v5 j) (v9 j) (v14 j) (v19 j) (v24 j)
        (broadcastTo S4096x128 v0 broadcasts_S1x128_S4096x128 j) (broadcastTo S4096x128 v1 broadcasts_S1x128_S4096x128 j)
        (broadcastTo S4096x128 v2 broadcasts_S1x128_S4096x128 j) (broadcastTo S4096x128 v3 broadcasts_S1x128_S4096x128 j)
        (broadcastTo S4096x128 v4 broadcasts_S1x128_S4096x128 j) := by
  unfold k0_pay1
  dsimp only
  simp only [shapeCast_self]
  rfl

/-- The payload at (r, l): the five blocks' entries there, mixed by the five row vectors at lane `l`. -/
theorem payload_apply (v0 v1 v2 v3 v4 : Vec F S1x128 .f32) (v5 v9 v14 v19 v24 : Vec F S4096x128 .f32) (r : Fin 4096) (l : Fin 128) :
    k0_pay1 v0 v1 v2 v3 v4 v5 v9 v14 v19 v24 (ix2 r l) =
      mix (v5 (ix2 r l)) (v9 (ix2 r l)) (v14 (ix2 r l)) (v19 (ix2 r l)) (v24 (ix2 r l))
        (v0 (ix2 (0 : Fin 1) l)) (v1 (ix2 (0 : Fin 1) l)) (v2 (ix2 (0 : Fin 1) l)) (v3 (ix2 (0 : Fin 1) l)) (v4 (ix2 (0 : Fin 1) l)) := by
  rw [payload_eq]
  show mix _ _ _ _ _ (broadcastTo S4096x128 v0 broadcasts_S1x128_S4096x128 (ix2 r l)) (broadcastTo S4096x128 v1 broadcasts_S1x128_S4096x128 (ix2 r l))
      (broadcastTo S4096x128 v2 broadcasts_S1x128_S4096x128 (ix2 r l)) (broadcastTo S4096x128 v3 broadcasts_S1x128_S4096x128 (ix2 r l))
      (broadcastTo S4096x128 v4 broadcasts_S1x128_S4096x128 (ix2 r l)) = _
  rw [spread_row v0, spread_row v1, spread_row v2, spread_row v3, spread_row v4]

/-- Weight row 0 loaded as a [1, 128] vector reads the weight array at (0, l). -/
theorem row0_apply (x5 : Vec F S5x128 .f32) (l : Fin 128) : View.ld x5 r0_0 (ix2 (0 : Fin 1) l) = x5 (ix2 (0 : Fin 5) l) := by
  show x5 (r0_0.idx (ix2 (0 : Fin 1) l)) = _
  refine congrArg x5 (funext fun a => Fin.ext ?_)
  match a with
  | ⟨0, _⟩ => rfl
  | ⟨1, _⟩ => show 0 + 1 * l.val = l.val; omega

/-- Weight row 1. -/
theorem row1_apply (x5 : Vec F S5x128 .f32) (l : Fin 128) : View.ld x5 r0_1 (ix2 (0 : Fin 1) l) = x5 (ix2 (1 : Fin 5) l) := by
  show x5 (r0_1.idx (ix2 (0 : Fin 1) l)) = _
  refine congrArg x5 (funext fun a => Fin.ext ?_)
  match a with
  | ⟨0, _⟩ => rfl
  | ⟨1, _⟩ => show 0 + 1 * l.val = l.val; omega

/-- Weight row 2. -/
theorem row2_apply (x5 : Vec F S5x128 .f32) (l : Fin 128) : View.ld x5 r0_2 (ix2 (0 : Fin 1) l) = x5 (ix2 (2 : Fin 5) l) := by
  show x5 (r0_2.idx (ix2 (0 : Fin 1) l)) = _
  refine congrArg x5 (funext fun a => Fin.ext ?_)
  match a with
  | ⟨0, _⟩ => rfl
  | ⟨1, _⟩ => show 0 + 1 * l.val = l.val; omega

/-- Weight row 3. -/
theorem row3_apply (x5 : Vec F S5x128 .f32) (l : Fin 128) : View.ld x5 r0_3 (ix2 (0 : Fin 1) l) = x5 (ix2 (3 : Fin 5) l) := by
  show x5 (r0_3.idx (ix2 (0 : Fin 1) l)) = _
  refine congrArg x5 (funext fun a => Fin.ext ?_)
  match a with
  | ⟨0, _⟩ => rfl
  | ⟨1, _⟩ => show 0 + 1 * l.val = l.val; omega

/-- Weight row 4. -/
theorem row4_apply (x5 : Vec F S5x128 .f32) (l : Fin 128) : View.ld x5 r0_4 (ix2 (0 : Fin 1) l) = x5 (ix2 (4 : Fin 5) l) := by
  show x5 (r0_4.idx (ix2 (0 : Fin 1) l)) = _
  refine congrArg x5 (funext fun a => Fin.ext ?_)
  match a with
  | ⟨0, _⟩ => rfl
  | ⟨1, _⟩ => show 0 + 1 * l.val = l.val; omega

/-- THE OUTPUT BLOCK after the body, at (r, l): the five stream blocks' entries there mixed by the weights of lane `l`. -/
theorem out_apply (x0 x1 x2 x3 x4 : Vec F S4096x128 .f32) (x5 : Vec F S5x128 .f32) (r : Fin 4096) (l : Fin 128) :
    out0_6 x0 x1 x2 x3 x4 x5 (ix2 r l) =
      mix (x0 (ix2 r l)) (x1 (ix2 r l)) (x2 (ix2 r l)) (x3 (ix2 r l)) (x4 (ix2 r l))
        (x5 (ix2 (0 : Fin 5) l)) (x5 (ix2 (1 : Fin 5) l)) (x5 (ix2 (2 : Fin 5) l)) (x5 (ix2 (3 : Fin 5) l)) (x5 (ix2 (4 : Fin 5) l)) := by
  unfold out0_6
  rw [View.canon_unit_zero zero_off]
  simp only [View.ld_unit_zero (S := S4096x128) zero_off]
  rw [payload_apply, row0_apply, row1_apply, row2_apply, row3_apply, row4_apply]

end Cert.KernelIdeal.Body

end
-- ==== Proof.Blocks.lean ====
/-
  From the blocks to the whole output array.

  The grid has 32 points; at point `t` every stream window and the output window sit at block (t, 0) of the
  flattened layout — 4096 consecutive rows, all 128 lanes — and the weight window is the whole weight array at every
  point. So what point `t` writes back is block `t` of ONE function of the arrays the region finds: the row merge
  `mergeRows`. The 32 output blocks tile the 131072 rows (row `R` is in the block of the point whose index is
  `R / 4096`), hence after the region the output array is `mergeRows` of the flattened streams and the weights.
-/
import proofs.«176489_j20538533609780_2_alg».proof.Proof.Body

noncomputable section

namespace Cert.KernelIdeal.Blocks

open Cert.KernelIdeal Cert.KernelIdeal.Gen Cert.KernelIdeal.Body Cert.Merge
open Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ)

/-! ## The index maps, decided over the grid -/

/-- Window 0's block index is the output window's, at every point (decided over the grid). -/
theorem moves_with_out0 : ∀ t : Fin cfg0.N, win0_0.index t (0 : Fin 2) = win0_6.index t (0 : Fin 2)
    ∧ win0_0.index t (1 : Fin 2) = win0_6.index t (1 : Fin 2) :=
  (by decide +kernel : ∀ t : Fin grid0.N, _)

/-- Window 1's block index is the output window's, at every point (decided over the grid). -/
theorem moves_with_out1 : ∀ t : Fin cfg0.N, win0_1.index t (0 : Fin 2) = win0_6.index t (0 : Fin 2)
    ∧ win0_1.index t (1 : Fin 2) = win0_6.index t (1 : Fin 2) :=
  (by decide +kernel : ∀ t : Fin grid0.N, _)

/-- Window 2's block index is the output window's, at every point (decided over the grid). -/
theorem moves_with_out2 : ∀ t : Fin cfg0.N, win0_2.index t (0 : Fin 2) = win0_6.index t (0 : Fin 2)
    ∧ win0_2.index t (1 : Fin 2) = win0_6.index t (1 : Fin 2) :=
  (by decide +kernel : ∀ t : Fin grid0.N, _)

/-- Window 3's block index is the output window's, at every point (decided over the grid). -/
theorem moves_with_out3 : ∀ t : Fin cfg0.N, win0_3.index t (0 : Fin 2) = win0_6.index t (0 : Fin 2)
    ∧ win0_3.index t (1 : Fin 2) = win0_6.index t (1 : Fin 2) :=
  (by decide +kernel : ∀ t : Fin grid0.N, _)

/-- Window 4's block index is the output window's, at every point (decided over the grid). -/
theorem moves_with_out4 : ∀ t : Fin cfg0.N, win0_4.index t (0 : Fin 2) = win0_6.index t (0 : Fin 2)
    ∧ win0_4.index t (1 : Fin 2) = win0_6.index t (1 : Fin 2) :=
  (by decide +kernel : ∀ t : Fin grid0.N, _)

/-- The weight window stays at block (0, 0), and the output window's lane block is 0. -/
theorem weights_fixed : ∀ t : Fin cfg0.N, win0_5.index t (0 : Fin 2) = 0 ∧ win0_5.index t (1 : Fin 2) = 0
    ∧ win0_6.index t (1 : Fin 2) = 0 :=
  (by decide +kernel : ∀ t : Fin grid0.N, _)

/-- Every one of the 32 row blocks is some point's output block. -/
theorem every_block : ∀ q : Fin 32, ∃ t : Fin cfg0.N, win0_6.index t = ![q.val, 0] :=
  (by decide +kernel : ∀ q : Fin 32, ∃ t : Fin grid0.N, win0_6.index t = ![q.val, 0])

/-! ## The input blocks, read where the output block sits -/

/-- Stream 1's block at a point is read where the output's block sits: same rows, same lanes. -/
theorem read0 (c : Dev nD) (t : Fin cfg0.N) (r : Fin 4096) (l : Fin 128) :
    iblk m c 0 t (ix2 r l) = V m c main_v0 (((cfg0.win 6).blk t).view.emb (ix2 r l)) := by
  obtain ⟨e0, e1⟩ := moves_with_out0 t
  show V m c main_v0 (((cfg0.win 0).blk t).view.emb (ix2 r l)) = _
  refine congrArg (V m c main_v0) (funext fun a => Fin.ext ?_)
  match a with
  | ⟨0, _⟩ => show win0_0.index t (0 : Fin 2) * 4096 + 1 * r.val = win0_6.index t (0 : Fin 2) * 4096 + 1 * r.val; omega
  | ⟨1, _⟩ => show win0_0.index t (1 : Fin 2) * 128 + 1 * l.val = win0_6.index t (1 : Fin 2) * 128 + 1 * l.val; omega

/-- Stream 2's block at a point is read where the output's block sits: same rows, same lanes. -/
theorem read1 (c : Dev nD) (t : Fin cfg0.N) (r : Fin 4096) (l : Fin 128) :
    iblk m c 1 t (ix2 r l) = V m c main_v1 (((cfg0.win 6).blk t).view.emb (ix2 r l)) := by
  obtain ⟨e0, e1⟩ := moves_with_out1 t
  show V m c main_v1 (((cfg0.win 1).blk t).view.emb (ix2 r l)) = _
  refine congrArg (V m c main_v1) (funext fun a => Fin.ext ?_)
  match a with
  | ⟨0, _⟩ => show win0_1.index t (0 : Fin 2) * 4096 + 1 * r.val = win0_6.index t (0 : Fin 2) * 4096 + 1 * r.val; omega
  | ⟨1, _⟩ => show win0_1.index t (1 : Fin 2) * 128 + 1 * l.val = win0_6.index t (1 : Fin 2) * 128 + 1 * l.val; omega

/-- Stream 3's block at a point is read where the output's block sits: same rows, same lanes. -/
theorem read2 (c : Dev nD) (t : Fin cfg0.N) (r : Fin 4096) (l : Fin 128) :
    iblk m c 2 t (ix2 r l) = V m c main_v2 (((cfg0.win 6).blk t).view.emb (ix2 r l)) := by
  obtain ⟨e0, e1⟩ := moves_with_out2 t
  show V m c main_v2 (((cfg0.win 2).blk t).view.emb (ix2 r l)) = _
  refine congrArg (V m c main_v2) (funext fun a => Fin.ext ?_)
  match a with
  | ⟨0, _⟩ => show win0_2.index t (0 : Fin 2) * 4096 + 1 * r.val = win0_6.index t (0 : Fin 2) * 4096 + 1 * r.val; omega
  | ⟨1, _⟩ => show win0_2.index t (1 : Fin 2) * 128 + 1 * l.val = win0_6.index t (1 : Fin 2) * 128 + 1 * l.val; omega

/-- Stream 4's block at a point is read where the output's block sits: same rows, same lanes. -/
theorem read3 (c : Dev nD) (t : Fin cfg0.N) (r : Fin 4096) (l : Fin 128) :
    iblk m c 3 t (ix2 r l) = V m c main_v3 (((cfg0.win 6).blk t).view.emb (ix2 r l)) := by
  obtain ⟨e0, e1⟩ := moves_with_out3 t
  show V m c main_v3 (((cfg0.win 3).blk t).view.emb (ix2 r l)) = _
  refine congrArg (V m c main_v3) (funext fun a => Fin.ext ?_)
  match a with
  | ⟨0, _⟩ => show win0_3.index t (0 : Fin 2) * 4096 + 1 * r.val = win0_6.index t (0 : Fin 2) * 4096 + 1 * r.val; omega
  | ⟨1, _⟩ => show win0_3.index t (1 : Fin 2) * 128 + 1 * l.val = win0_6.index t (1 : Fin 2) * 128 + 1 * l.val; omega

/-- Stream 5's block at a point is read where the output's block sits: same rows, same lanes. -/
theorem read4 (c : Dev nD) (t : Fin cfg0.N) (r : Fin 4096) (l : Fin 128) :
    iblk m c 4 t (ix2 r l) = V m c main_v4 (((cfg0.win 6).blk t).view.emb (ix2 r l)) := by
  obtain ⟨e0, e1⟩ := moves_with_out4 t
  show V m c main_v4 (((cfg0.win 4).blk t).view.emb (ix2 r l)) = _
  refine congrArg (V m c main_v4) (funext fun a => Fin.ext ?_)
  match a with
  | ⟨0, _⟩ => show win0_4.index t (0 : Fin 2) * 4096 + 1 * r.val = win0_6.index t (0 : Fin 2) * 4096 + 1 * r.val; omega
  | ⟨1, _⟩ => show win0_4.index t (1 : Fin 2) * 128 + 1 * l.val = win0_6.index t (1 : Fin 2) * 128 + 1 * l.val; omega

/-- Weight (0, l), read out of the staged weight array, is the launched array's entry at row 0 and the lane of the
    output block's entry (r, l). -/
theorem weight0 (c : Dev nD) (t : Fin cfg0.N) (r : Fin 4096) (l : Fin 128) :
    iblk m c 5 t (ix2 (0 : Fin 5) l)
      = V m c main_arg5 (ix2 (0 : Fin 5) ((((cfg0.win 6).blk t).view.emb (ix2 r l) : S131072x128.Idx) 1) : S5x128.Idx) := by
  obtain ⟨e0, e1, e2⟩ := weights_fixed t
  show V m c main_arg5 (((cfg0.win 5).blk t).view.emb (ix2 (0 : Fin 5) l)) = _
  refine congrArg (V m c main_arg5) (funext fun a => Fin.ext ?_)
  match a with
  | ⟨0, _⟩ => show win0_5.index t (0 : Fin 2) * 5 + 1 * 0 = 0; omega
  | ⟨1, _⟩ => show win0_5.index t (1 : Fin 2) * 128 + 1 * l.val = win0_6.index t (1 : Fin 2) * 128 + 1 * l.val; omega

/-- Weight (1, l), read out of the staged weight array, is the launched array's entry at row 1 and the lane of the
    output block's entry (r, l). -/
theorem weight1 (c : Dev nD) (t : Fin cfg0.N) (r : Fin 4096) (l : Fin 128) :
    iblk m c 5 t (ix2 (1 : Fin 5) l)
      = V m c main_arg5 (ix2 (1 : Fin 5) ((((cfg0.win 6).blk t).view.emb (ix2 r l) : S131072x128.Idx) 1) : S5x128.Idx) := by
  obtain ⟨e0, e1, e2⟩ := weights_fixed t
  show V m c main_arg5 (((cfg0.win 5).blk t).view.emb (ix2 (1 : Fin 5) l)) = _
  refine congrArg (V m c main_arg5) (funext fun a => Fin.ext ?_)
  match a with
  | ⟨0, _⟩ => show win0_5.index t (0 : Fin 2) * 5 + 1 * 1 = 1; omega
  | ⟨1, _⟩ => show win0_5.index t (1 : Fin 2) * 128 + 1 * l.val = win0_6.index t (1 : Fin 2) * 128 + 1 * l.val; omega

/-- Weight (2, l), read out of the staged weight array, is the launched array's entry at row 2 and the lane of the
    output block's entry (r, l). -/
theorem weight2 (c : Dev nD) (t : Fin cfg0.N) (r : Fin 4096) (l : Fin 128) :
    iblk m c 5 t (ix2 (2 : Fin 5) l)
      = V m c main_arg5 (ix2 (2 : Fin 5) ((((cfg0.win 6).blk t).view.emb (ix2 r l) : S131072x128.Idx) 1) : S5x128.Idx) := by
  obtain ⟨e0, e1, e2⟩ := weights_fixed t
  show V m c main_arg5 (((cfg0.win 5).blk t).view.emb (ix2 (2 : Fin 5) l)) = _
  refine congrArg (V m c main_arg5) (funext fun a => Fin.ext ?_)
  match a with
  | ⟨0, _⟩ => show win0_5.index t (0 : Fin 2) * 5 + 1 * 2 = 2; omega
  | ⟨1, _⟩ => show win0_5.index t (1 : Fin 2) * 128 + 1 * l.val = win0_6.index t (1 : Fin 2) * 128 + 1 * l.val; omega

/-- Weight (3, l), read out of the staged weight array, is the launched array's entry at row 3 and the lane of the
    output block's entry (r, l). -/
theorem weight3 (c : Dev nD) (t : Fin cfg0.N) (r : Fin 4096) (l : Fin 128) :
    iblk m c 5 t (ix2 (3 : Fin 5) l)
      = V m c main_arg5 (ix2 (3 : Fin 5) ((((cfg0.win 6).blk t).view.emb (ix2 r l) : S131072x128.Idx) 1) : S5x128.Idx) := by
  obtain ⟨e0, e1, e2⟩ := weights_fixed t
  show V m c main_arg5 (((cfg0.win 5).blk t).view.emb (ix2 (3 : Fin 5) l)) = _
  refine congrArg (V m c main_arg5) (funext fun a => Fin.ext ?_)
  match a with
  | ⟨0, _⟩ => show win0_5.index t (0 : Fin 2) * 5 + 1 * 3 = 3; omega
  | ⟨1, _⟩ => show win0_5.index t (1 : Fin 2) * 128 + 1 * l.val = win0_6.index t (1 : Fin 2) * 128 + 1 * l.val; omega

/-- Weight (4, l), read out of the staged weight array, is the launched array's entry at row 4 and the lane of the
    output block's entry (r, l). -/
theorem weight4 (c : Dev nD) (t : Fin cfg0.N) (r : Fin 4096) (l : Fin 128) :
    iblk m c 5 t (ix2 (4 : Fin 5) l)
      = V m c main_arg5 (ix2 (4 : Fin 5) ((((cfg0.win 6).blk t).view.emb (ix2 r l) : S131072x128.Idx) 1) : S5x128.Idx) := by
  obtain ⟨e0, e1, e2⟩ := weights_fixed t
  show V m c main_arg5 (((cfg0.win 5).blk t).view.emb (ix2 (4 : Fin 5) l)) = _
  refine congrArg (V m c main_arg5) (funext fun a => Fin.ext ?_)
  match a with
  | ⟨0, _⟩ => show win0_5.index t (0 : Fin 2) * 5 + 1 * 4 = 4; omega
  | ⟨1, _⟩ => show win0_5.index t (1 : Fin 2) * 128 + 1 * l.val = win0_6.index t (1 : Fin 2) * 128 + 1 * l.val; omega

/-! ## What a point writes back -/

/-- WHAT POINT `t` WRITES BACK is block `t` of the row merge of the arrays the region finds. -/
theorem flushed_eq (c : Dev nD) (t : Fin cfg0.N) :
    (dats m 0 c).flushed 6 t = ((cfg0.win 6).blk t).view.read (Elt F)
      (mergeRows (V m c main_v0) (V m c main_v1) (V m c main_v2) (V m c main_v3) (V m c main_v4) (V m c main_arg5)) := by
  show (cfg0.win 6).cut (grid0.coords t) ((dats m 0 c).after 6 t) = _
  rw [after0_6]
  refine funext fun (j : S4096x128.Idx) => ?_
  obtain ⟨r, l, rfl⟩ : ∃ (r : Fin 4096) (l : Fin 128), j = ix2 r l := ⟨j 0, j 1, eq_ix2 j⟩
  show out0_6 (iblk m c 0 t) (iblk m c 1 t) (iblk m c 2 t) (iblk m c 3 t) (iblk m c 4 t) (iblk m c 5 t) (ix2 r l)
    = mergeRows (V m c main_v0) (V m c main_v1) (V m c main_v2) (V m c main_v3) (V m c main_v4) (V m c main_arg5)
        (((cfg0.win 6).blk t).view.emb (ix2 r l))
  refine (out_apply (iblk m c 0 t) (iblk m c 1 t) (iblk m c 2 t) (iblk m c 3 t) (iblk m c 4 t) (iblk m c 5 t) r l).trans ?_
  rw [read0 m c t r l, read1 m c t r l, read2 m c t r l, read3 m c t r l, read4 m c t r l,
    weight0 m c t r l, weight1 m c t r l, weight2 m c t r l, weight3 m c t r l, weight4 m c t r l]
  rfl

/-! ## The blocks tile the rows -/

/-- A row-layout index is in point `t`'s output block iff each coordinate is in the block's range on its axis. -/
theorem mem_out_block (t : Fin cfg0.N) (i : S131072x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v5).slice (win0_6.rect t)).set ↔ _
  rw [View.set_slice_whole, Rect.mem_set_unit]
  exact Iff.rfl

/-- Every entry of the output array is in the block some point writes back. -/
theorem covered (i : S131072x128.Idx) :
    ∃ t : Fin cfg0.N, (cfg0.win 6).flush t = true ∧ i ∈ ((cfg0.win 6).blk t).view.set := by
  have hi0 : (i 0).val < 131072 := (i 0).isLt
  have hi1 : (i 1).val < 128 := (i 1).isLt
  obtain ⟨t, ht⟩ := every_block ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_out_block]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- THE OUTPUT ARRAY after the region: the row merge of the arrays the region finds. -/
theorem out_array (c : Dev nD) :
    (dats m 0 c).arrAt 6 cfg0.N
      = mergeRows (V m c main_v0) (V m c main_v1) (V m c main_v2) (V m c main_v3) (V m c main_v4) (V m c main_arg5) :=
  (dats m 0 c).arrAt_eq_of_cover 6 _ (fun t _ => flushed_eq m c t) covered

end Cert.KernelIdeal.Blocks

end
-- ==== Proof.Host.lean ====
/-
  The host lines around the region.

  Before the region five reshapes flatten the activation streams to [131072, 128]; nothing else is written, so the
  region finds each flattened stream as the reshape of the launched array and the weights as launched. After the
  region one reshape un-flattens the region's output array into the result.
-/
import proofs.«176489_j20538533609780_2_alg».proof.Proof.Gen.KernelIdeal.Frame

noncomputable section

namespace Cert.KernelIdeal.Host

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The region finds stream 1 flattened. -/
theorem V_flat0 (c : Dev nD) : (V m c main_v0 : S131072x128.Idx → F .f32)
    = shapeCast S131072x128 (m ((c : Thread nD τ).loc main_arg0)) shapeCasts_S8x128x128x128_S131072x128 := by
  show StableHlo.after hostOps0 (fun b => m (c, b)) (Proc.devRef .tc main_v0) = _
  after_results; rfl

/-- Stream 2. -/
theorem V_flat1 (c : Dev nD) : (V m c main_v1 : S131072x128.Idx → F .f32)
    = shapeCast S131072x128 (m ((c : Thread nD τ).loc main_arg1)) shapeCasts_S8x128x128x128_S131072x128 := by
  show StableHlo.after hostOps0 (fun b => m (c, b)) (Proc.devRef .tc main_v1) = _
  after_results; rfl

/-- Stream 3. -/
theorem V_flat2 (c : Dev nD) : (V m c main_v2 : S131072x128.Idx → F .f32)
    = shapeCast S131072x128 (m ((c : Thread nD τ).loc main_arg2)) shapeCasts_S8x128x128x128_S131072x128 := by
  show StableHlo.after hostOps0 (fun b => m (c, b)) (Proc.devRef .tc main_v2) = _
  after_results; rfl

/-- Stream 4. -/
theorem V_flat3 (c : Dev nD) : (V m c main_v3 : S131072x128.Idx → F .f32)
    = shapeCast S131072x128 (m ((c : Thread nD τ).loc main_arg3)) shapeCasts_S8x128x128x128_S131072x128 := by
  show StableHlo.after hostOps0 (fun b => m (c, b)) (Proc.devRef .tc main_v3) = _
  after_results; rfl

/-- Stream 5. -/
theorem V_flat4 (c : Dev nD) : (V m c main_v4 : S131072x128.Idx → F .f32)
    = shapeCast S131072x128 (m ((c : Thread nD τ).loc main_arg4)) shapeCasts_S8x128x128x128_S131072x128 := by
  show StableHlo.after hostOps0 (fun b => m (c, b)) (Proc.devRef .tc main_v4) = _
  after_results; rfl

/-- The result is the region's output array, un-flattened. -/
theorem result_unflat (c : Dev nD) :
    (Pipeline.afterTail₀ cfgs (dats m) 0 (V0 m) [hostOps1] c main_v6 : S8x128x128x128.Idx → F .f32)
      = shapeCast S8x128x128x128 ((dats m 0 c).arrAt 6 cfg0.N) shapeCasts_S131072x128_S8x128x128x128 := by
  unfold Pipeline.afterTail₀
  show StableHlo.after hostOps1 _ (Proc.devRef .tc main_v6) = _
  after_results
  have e : (Pipeline.withArrays (cfgs 0).spec c (V0 m c) (fun w => (dats m 0 c).arrAt w (cfgs 0).N) (Proc.devRef .tc main_v5)
      : S131072x128.Idx → F .f32) = (dats m 0 c).arrAt 6 cfg0.N :=
    Pipeline.withArrays_arr spec0 launch0.win.arr_inj c _ _ 6
  exact funext fun i => congrFun (congrArg
    (fun X : S131072x128.Idx → F .f32 => shapeCast S8x128x128x128 X shapeCasts_S131072x128_S8x128x128x128) e) i

end Cert.KernelIdeal.Host

end
-- ==== Proof.Result.lean ====
/-
  The kernel program's run, with its result named.

  The program flattens the five streams, runs the region, and un-flattens the region's output. The output array is
  the row merge of the flattened streams and the weights; un-flattened, that is the merged activations of the launched
  arrays (flatten, merge the rows, un-flatten = merge). Every weakly fair execution ends with the result there and
  the six arguments unchanged.
-/
import proofs.«176489_j20538533609780_2_alg».proof.Proof.Blocks
import proofs.«176489_j20538533609780_2_alg».proof.Proof.Host

noncomputable section

namespace Cert.KernelIdeal.Result

open Cert.KernelIdeal Cert.KernelIdeal.Gen Cert.Merge
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array the lines after the region leave: the merged activations of the launched arrays. -/
theorem result_eq (c : Dev nD) :
    (Pipeline.afterTail₀ cfgs (dats m) 0 (V0 m) [hostOps1] c main_v6 : S8x128x128x128.Idx → F .f32)
      = mergeAct (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Host.result_unflat m c, Blocks.out_array m c, Host.V_flat0 m c, Host.V_flat1 m c, Host.V_flat2 m c,
    Host.V_flat3 m c, Host.V_flat4 m c, V_main_arg5 m c]
  exact unflatten_mergeRows _ _ _ _ _ _ _ _

/-- THE RUN: every weakly fair execution of the kernel program terminates, nothing faulting, with the result at the
    merged activations of the launched arrays and the arguments as launched. -/
theorem run : θ_run defs (onTc (τ := τ) (main (F := F))) ⟨m, fun _ => 0, ρ⟩ (fun r => ∀ c : Dev nD,
      r.2.mem ((c.tc : Thread nD τ).loc main_v6)
        = mergeAct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Result

end
-- ==== Proof.lean ====
/-
  A per-channel weighted sum of five activation streams: the kernel against its reference, over the extended reals.

  Both programs compute, for activations t₁ … t₅ of shape [8, 128, 128, 128] and weights w of shape [5, 128],
      out (b, h, x, c) = (((t₁·w₀c + t₂·w₁c) + t₃·w₂c) + t₄·w₃c) + t₅·w₄c,
  every tᵢ read at (b, h, x, c), the five products added from the left. The kernel flattens (batch, height, width) into
  131072 rows, covers them with 32 blocks of 4096 rows, and in each block multiplies each stream by its weight row
  spread down the rows; the reference spreads each weight row over the whole activation shape and multiplies there.
  The two agree entry by entry with the SAME grouping of the sum, so no arithmetic law is needed: the only facts used
  are about positions — a reshape keeps the row-major position, a row's lane is the entry's channel, the 32 blocks
  tile the rows — and the finiteness of the inputs is never opened.

  The pieces: the merge as one function of the arrays (Proof/Spec.lean); the reference's result is that function
  (Proof/RefValue.lean, over the generated reading of the reference's run); the kernel body's output block entry by
  entry (Proof/Body.lean); from the blocks to the whole output array (Proof/Blocks.lean); the reshapes around the
  region (Proof/Host.lean); the kernel program's run with its result named (Proof/Result.lean). The three frames
  are the generated frame runs; the idealization rewrote nothing, so that conjunct is trivial.
-/
import proofs.«176489_j20538533609780_2_alg».proof.Defs
import proofs.«176489_j20538533609780_2_alg».proof.Proof.Gen.Kernel
import proofs.«176489_j20538533609780_2_alg».proof.Proof.Gen.Kernel.Skeleton
import proofs.«176489_j20538533609780_2_alg».proof.Proof.Gen.Kernel.Launch
import proofs.«176489_j20538533609780_2_alg».proof.Proof.Gen.Kernel.Points
import proofs.«176489_j20538533609780_2_alg».proof.Proof.Gen.Kernel.Frame
import proofs.«176489_j20538533609780_2_alg».proof.Proof.Gen.KernelIdeal
import proofs.«176489_j20538533609780_2_alg».proof.Proof.Gen.KernelIdeal.Skeleton
import proofs.«176489_j20538533609780_2_alg».proof.Proof.Gen.KernelIdeal.Launch
import proofs.«176489_j20538533609780_2_alg».proof.Proof.Gen.KernelIdeal.Points
import proofs.«176489_j20538533609780_2_alg».proof.Proof.Gen.KernelIdeal.Frame
import proofs.«176489_j20538533609780_2_alg».proof.Proof.Gen.ReferenceIdeal
import proofs.«176489_j20538533609780_2_alg».proof.Proof.Gen.Pre_finite_inputs
import proofs.«176489_j20538533609780_2_alg».proof.Proof.Gen.ReferenceIdeal.Run
import proofs.«176489_j20538533609780_2_alg».proof.Proof.Gen.ReferenceIdeal.Read
import proofs.«176489_j20538533609780_2_alg».proof.Proof.RefValue
import proofs.«176489_j20538533609780_2_alg».proof.Proof.Result
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the merged activations of those arguments:
    the kernel by its run, the reference because its result term is the same function. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
